-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x128x512 : Shape := ⟨3, ![4, 128, 512]⟩
abbrev S1024x512 : Shape := ⟨2, ![1024, 512]⟩
abbrev S512 : Shape := ⟨1, ![512]⟩
abbrev S512x2048 : Shape := ⟨2, ![512, 2048]⟩
abbrev S2048 : Shape := ⟨1, ![2048]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S512x2048 .f32) (main_arg5 : FVec F S2048 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4x256x512 .f32) (main_arg1 : FVec F S4x128x512 .f32) (main_arg2 : FVec F S1024x512 .f32) (main_arg3 : FVec F S512 .f32) (main_arg4 : FVec F S512x2048 .f32) (main_arg5 : FVec F S2048 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x128x512 .f32 := Host.absf main_arg1
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x256x512 : Shape := ⟨3, ![4, 256, 512]⟩
abbrev S4x128x512 : Shape := ⟨3, ![4, 128, 512]⟩
abbrev S1024x512 : Shape := ⟨2, ![1024, 512]⟩
abbrev S512 : Shape := ⟨1, ![512]⟩
abbrev S512x2048 : Shape := ⟨2, ![512, 2048]⟩
abbrev S2048 : Shape := ⟨1, ![2048]⟩
abbrev S512x512 : Shape := ⟨2, ![512, 512]⟩
abbrev S4x256x128x2048 : Shape := ⟨4, ![4, 256, 128, 2048]⟩
abbrev S1x32x512 : Shape := ⟨3, ![1, 32, 512]⟩
abbrev S1x128x512 : Shape := ⟨3, ![1, 128, 512]⟩
abbrev S512x256 : Shape := ⟨2, ![512, 256]⟩
abbrev S256 : Shape := ⟨1, ![256]⟩
abbrev S1x32x128x256 : Shape := ⟨4, ![1, 32, 128, 256]⟩
abbrev S32x128x512 : Shape := ⟨3, ![32, 128, 512]⟩
abbrev S32x512 : Shape := ⟨2, ![32, 512]⟩
abbrev S128x512 : Shape := ⟨2, ![128, 512]⟩
abbrev S32x1x512 : Shape := ⟨3, ![32, 1, 512]⟩
abbrev S1x1x512 : Shape := ⟨3, ![1, 1, 512]⟩
abbrev S4096x512 : Shape := ⟨2, ![4096, 512]⟩
abbrev S4096x256 : Shape := ⟨2, ![4096, 256]⟩
abbrev S1x256 : Shape := ⟨2, ![1, 256]⟩
abbrev S32x128x256 : Shape := ⟨3, ![32, 128, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S1024x512, .f32⟩
  | .hbm, ⟨3, _⟩ => ⟨S512, .f32⟩
  | .hbm, ⟨4, _⟩ => ⟨S512x2048, .f32⟩
  | .hbm, ⟨5, _⟩ => ⟨S2048, .f32⟩
  | .hbm, ⟨6, _⟩ => ⟨S512x512, .f32⟩
  | .hbm, ⟨7, _⟩ => ⟨S512x512, .bf16⟩
  | .hbm, ⟨8, _⟩ => ⟨S512x512, .f32⟩
  | .hbm, ⟨9, _⟩ => ⟨S512x512, .bf16⟩
  | .hbm, ⟨10, _⟩ => ⟨S4x256x512, .bf16⟩
  | .hbm, ⟨11, _⟩ => ⟨S4x128x512, .bf16⟩
  | .hbm, ⟨12, _⟩ => ⟨S512x2048, .bf16⟩
  | .hbm, ⟨13, _⟩ => ⟨S4x256x128x2048, .f32⟩
  | .local _ .vmem, ⟨0, _⟩ => ⟨S1x32x512, .bf16⟩
  | .local _ .vmem, ⟨1, _⟩ => ⟨S1x32x512, .bf16⟩
  | .local _ .vmem, ⟨2, _⟩ => ⟨S1x128x512, .bf16⟩
  | .local _ .vmem, ⟨3, _⟩ => ⟨S1x128x512, .bf16⟩
  | .local _ .vmem, ⟨4, _⟩ => ⟨S512x512, .bf16⟩
  | .local _ .vmem, ⟨5, _⟩ => ⟨S512x512, .bf16⟩
  | .local _ .vmem, ⟨6, _⟩ => ⟨S512, .f32⟩
  | .local _ .vmem, ⟨7, _⟩ => ⟨S512x256, .bf16⟩
  | .local _ .vmem, ⟨8, _⟩ => ⟨S512x256, .bf16⟩
  | .local _ .vmem, ⟨9, _⟩ => ⟨S256, .f32⟩
  | .local _ .vmem, ⟨10, _⟩ => ⟨S256, .f32⟩
  | .local _ .vmem, ⟨11, _⟩ => ⟨S1x32x128x256, .f32⟩
  | .local _ .vmem, ⟨12, _⟩ => ⟨S1x32x128x256, .f32⟩
  | .local _ .vmem, ⟨13, _⟩ => ⟨S32x128x512, .bf16⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x32x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  slices_S1024x512_S512x512_0_0 : S1024x512.Slices ![0, 0] S512x512
  bitsLt_bf16_f32 : FTy.bits .bf16 < FTy.bits .f32
  slices_S1024x512_S512x512_512_0 : S1024x512.Slices ![512, 0] S512x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  inb_S512_S512_0 : ∀ a, (![0] : Fin 1 → Nat) a + S512.size a ≤ S512.size a
  h_S512 : 0 < S512.numel
  shapeCasts_S512_S1x1x512 : S512.ShapeCasts S1x1x512
  broadcasts_S1x1x512_S32x128x512 : S1x1x512.Broadcasts S32x128x512
  inb_S32x128x512_S32x128x512_0_0_0 : ∀ a, (![0, 0, 0] : Fin 3 → Nat) a + S32x128x512.size a ≤ S32x128x512.size a
  h_S32x128x512 : 0 < S32x128x512.numel
  shapeCasts_S32x128x512_S32x128x512 : S32x128x512.ShapeCasts S32x128x512
  packedbf16_S32x128x512_S32x128x512_0_0_0 : (Rect.unit (s := S32x128x512) ![0, 0, 0] S32x128x512.size inb_S32x128x512_S32x128x512_0_0_0).PackedRows (EltTy.packing .bf16)
  shapeCasts_S32x128x512_S4096x512 : S32x128x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S4096x256_S32x128x256 : S4096x256.ShapeCasts S32x128x256
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S32x128x256 : S1x32x128x256.ShapeCasts S32x128x256
  shapeCasts_S32x128x256_S1x32x128x256 : S32x128x256.ShapeCasts S1x32x128x256
  dot_S32x512_S512x512_S32x512_1_0_0_1_n_n_wf : DotDims.WF S32x512 S512x512 S32x512 [1] [0] [0] [1] [] []
  dot_S128x512_S512x512_S128x512_1_0_0_1_n_n_wf : DotDims.WF S128x512 S512x512 S128x512 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .bf16 = 32 ∨ (Rect.block (s := S4x256x512) S1x32x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .bf16 = 32 ∨ (Rect.block (s := S4x128x512) S1x128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x2048.size a
  hwx0_5 : ∀ i : grid0.Coords, EltTy.bits .bf16 = 32 ∨ (Rect.block (s := S512x2048) S512x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S2048.size a
  hwx0_6 : ∀ i : grid0.Coords, EltTy.bits .f32 = 32 ∨ (Rect.block (s := S2048) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x128x256.size a ≤ S4x256x128x2048.size a
  hwx0_7 : ∀ i : grid0.Coords, EltTy.bits .f32 = 32 ∨ (Rect.block (s := S4x256x128x2048) S1x32x128x256.size (cc0_transform_7 i) (hinb0_7 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_v4) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x32x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x128x512 : Shape := ⟨3, ![4, 128, 512]⟩
abbrev S1024x512 : Shape := ⟨2, ![1024, 512]⟩
abbrev S512 : Shape := ⟨1, ![512]⟩
abbrev S512x2048 : Shape := ⟨2, ![512, 2048]⟩
abbrev S2048 : Shape := ⟨1, ![2048]⟩
abbrev S512x512 : Shape := ⟨2, ![512, 512]⟩
abbrev S4x256x1x512 : Shape := ⟨4, ![4, 256, 1, 512]⟩
abbrev S4x1x128x512 : Shape := ⟨4, ![4, 1, 128, 512]⟩
abbrev S4x256x128x512 : Shape := ⟨4, ![4, 256, 128, 512]⟩
abbrev S1x1x1x512 : Shape := ⟨4, ![1, 1, 1, 512]⟩
abbrev S4x256x128x2048 : Shape := ⟨4, ![4, 256, 128, 2048]⟩
abbrev S1x1x1x2048 : Shape := ⟨4, ![1, 1, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S1024x512, .f32⟩
  | .hbm, ⟨3, _⟩ => ⟨S512, .f32⟩
  | .hbm, ⟨4, _⟩ => ⟨S512x2048, .f32⟩
  | .hbm, ⟨5, _⟩ => ⟨S2048, .f32⟩
  | .hbm, ⟨6, _⟩ => ⟨S512x512, .f32⟩
  | .hbm, ⟨7, _⟩ => ⟨S512x512, .f32⟩
  | .hbm, ⟨8, _⟩ => ⟨S4x256x512, .f32⟩
  | .hbm, ⟨9, _⟩ => ⟨S4x128x512, .f32⟩
  | .hbm, ⟨10, _⟩ => ⟨S4x256x1x512, .f32⟩
  | .hbm, ⟨11, _⟩ => ⟨S4x1x128x512, .f32⟩
  | .hbm, ⟨12, _⟩ => ⟨S4x256x128x512, .f32⟩
  | .hbm, ⟨13, _⟩ => ⟨S4x256x128x512, .f32⟩
  | .hbm, ⟨14, _⟩ => ⟨S4x256x128x512, .f32⟩
  | .hbm, ⟨15, _⟩ => ⟨S1x1x1x512, .f32⟩
  | .hbm, ⟨16, _⟩ => ⟨S4x256x128x512, .f32⟩
  | .hbm, ⟨17, _⟩ => ⟨S4x256x128x512, .f32⟩
  | .hbm, ⟨18, _⟩ => ⟨S4x256x128x512, .f32⟩
  | .hbm, ⟨19, _⟩ => ⟨S4x256x128x2048, .f32⟩
  | .hbm, ⟨20, _⟩ => ⟨S1x1x1x2048, .f32⟩
  | .hbm, ⟨21, _⟩ => ⟨S4x256x128x2048, .f32⟩
  | .hbm, ⟨22, _⟩ => ⟨S4x256x128x2048, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S1024x512_S512x512_0_0 : S1024x512.Slices ![0, 0] S512x512
  slices_S1024x512_S512x512_512_0 : S1024x512.Slices ![512, 0] S512x512
  bcast_S4x256x512_S4x256x1x512_0_1_3 : S4x256x512.BroadcastsInDim S4x256x1x512 (![0, 1, 3] : Fin 3 → Fin S4x256x1x512.rank)
  bcast_S4x128x512_S4x1x128x512_0_2_3 : S4x128x512.BroadcastsInDim S4x1x128x512 (![0, 2, 3] : Fin 3 → Fin S4x1x128x512.rank)
  bcast_S4x256x1x512_S4x256x128x512_0_1_2_3 : S4x256x1x512.BroadcastsInDim S4x256x128x512 (![0, 1, 2, 3] : Fin 4 → Fin S4x256x128x512.rank)
  bcast_S4x1x128x512_S4x256x128x512_0_1_2_3 : S4x1x128x512.BroadcastsInDim S4x256x128x512 (![0, 1, 2, 3] : Fin 4 → Fin S4x256x128x512.rank)
  bcast_S512_S1x1x1x512_3 : S512.BroadcastsInDim S1x1x1x512 (![3] : Fin 1 → Fin S1x1x1x512.rank)
  bcast_S1x1x1x512_S4x256x128x512_0_1_2_3 : S1x1x1x512.BroadcastsInDim S4x256x128x512 (![0, 1, 2, 3] : Fin 4 → Fin S4x256x128x512.rank)
  bcast_S2048_S1x1x1x2048_3 : S2048.BroadcastsInDim S1x1x1x2048 (![3] : Fin 1 → Fin S1x1x1x2048.rank)
  bcast_S1x1x1x2048_S4x256x128x2048_0_1_2_3 : S1x1x1x2048.BroadcastsInDim S4x256x128x2048 (![0, 1, 2, 3] : Fin 4 → Fin S4x256x128x2048.rank)
  dot_S4x256x512_S512x512_S4x256x512_2_0_01_1_n_n_wf : DotDims.WF S4x256x512 S512x512 S4x256x512 [2] [0] [0, 1] [1] [] []
  dot_S4x128x512_S512x512_S4x128x512_2_0_01_1_n_n_wf : DotDims.WF S4x128x512 S512x512 S4x128x512 [2] [0] [0, 1] [1] [] []
  dot_S4x256x128x512_S512x2048_S4x256x128x2048_3_0_012_1_n_n_wf : DotDims.WF S4x256x128x512 S512x2048 S4x256x128x2048 [3] [0] [0, 1, 2] [1] [] []

variable [Facts₀]

def dot_S4x256x512_S512x512_S4x256x512_2_0_01_1_n_n : DotDims S4x256x512 S512x512 S4x256x512 where
  lhsContracting := [2]
  rhsContracting := [0]
  lhsNonContracting := [0, 1]
  rhsNonContracting := [1]
  lhsBatch := []
  rhsBatch := []
  wf := dot_S4x256x512_S512x512_S4x256x512_2_0_01_1_n_n_wf
def dot_S4x128x512_S512x512_S4x128x512_2_0_01_1_n_n : DotDims S4x128x512 S512x512 S4x128x512 where
  lhsContracting := [2]
  rhsContracting := [0]
  lhsNonContracting := [0, 1]
  rhsNonContracting := [1]
  lhsBatch := []
  rhsBatch := []
  wf := dot_S4x128x512_S512x512_S4x128x512_2_0_01_1_n_n_wf
def dot_S4x256x128x512_S512x2048_S4x256x128x2048_3_0_012_1_n_n : DotDims S4x256x128x512 S512x2048 S4x256x128x2048 where
  lhsContracting := [3]
  rhsContracting := [0]
  lhsNonContracting := [0, 1, 2]
  rhsNonContracting := [1]
  lhsBatch := []
  rhsBatch := []
  wf := dot_S4x256x128x512_S512x2048_S4x256x128x2048_3_0_012_1_n_n_wf

class Facts : Prop extends Facts₀ where

variable [Facts]
-- ==== Proof.Spec.lean ====
/-
  The joint network of a transducer as ONE function of its six argument arrays, on the extended reals.

  For a batch entry b, an encoder frame t, a decoder step u and a vocabulary entry v,

      hidden b t u k = tanh ( (Σ_d enc[b,t,d] · W1[d,k]) + (Σ_d dec[b,u,d] · W1[512+d,k]) + b1[k] )
      logits b t u v = (Σ_k hidden b t u k · W2[k,v]) + b2[v]

  with the additions grouped as written: the encoder's projection plus the decoder's, then the bias. Both programs
  compute exactly this grouping, so no law of the extended reals beyond the definitions is needed to compare them
  and the inputs' finiteness is never used.
-/
import Idealize.ShloMosaic.PureOps.Ideal
import Idealize.ShloMosaic.Lib.ValueIdx

noncomputable section

namespace Cert.Joint

open Idealize.ShloMosaic Idealize.ShloMosaic.ValueIdx

/-- Row `d` of the upper half of the first layer's weight: the rows that multiply the encoder's state. -/
abbrev rowEnc (d : Fin 512) : Fin 1024 := ⟨d.val, by have := d.isLt; omega⟩

/-- Row `512 + d` of the first layer's weight: the lower half, the rows that multiply the decoder's state. -/
abbrev rowDec (d : Fin 512) : Fin 1024 := ⟨512 + d.val, by have := d.isLt; omega⟩

/-- The hidden activation at (b, t, u, k): tanh of the encoder's projection plus the decoder's projection plus the bias. -/
def hidden (enc : FVec Ideal ⟨3, ![4, 256, 512]⟩ .f32) (dec : FVec Ideal ⟨3, ![4, 128, 512]⟩ .f32)
    (W1 : FVec Ideal ⟨2, ![1024, 512]⟩ .f32) (b1 : FVec Ideal ⟨1, ![512]⟩ .f32)
    (b : Fin 4) (t : Fin 256) (u : Fin 128) (k : Fin 512) : EReal :=
  Ideal.tanh ((∑ d : Fin 512, enc (ix3 b t d) * W1 (ix2 (rowEnc d) k))
    + (∑ d : Fin 512, dec (ix3 b u d) * W1 (ix2 (rowDec d) k)) + b1 (ix1 k))

/-- The logits at (b, t, u, v): the hidden activation through the second layer, plus its bias. -/
def logits (enc : FVec Ideal ⟨3, ![4, 256, 512]⟩ .f32) (dec : FVec Ideal ⟨3, ![4, 128, 512]⟩ .f32)
    (W1 : FVec Ideal ⟨2, ![1024, 512]⟩ .f32) (b1 : FVec Ideal ⟨1, ![512]⟩ .f32)
    (W2 : FVec Ideal ⟨2, ![512, 2048]⟩ .f32) (b2 : FVec Ideal ⟨1, ![2048]⟩ .f32) :
    FVec Ideal ⟨4, ![4, 256, 128, 2048]⟩ .f32 := fun i =>
  (∑ k : Fin 512, hidden enc dec W1 b1 (i 0) (i 1) (i 2) k * W2 (ix2 k (i 3))) + b2 (ix1 (i 3))

end Cert.Joint

end
-- ==== Proof.RefSide.lean ====
/-
  The reference program's result, read at an index, is the joint network of `Spec.lean`.

  The reference slices the first layer's weight into its two halves, projects the encoder's and the decoder's states
  (two contractions over the 512 input features), spreads the two projections over the (t, u) plane, adds them, adds
  the bias, applies tanh, contracts with the second layer's weight and adds its bias. Read one operation at a time at
  an index (b, t, u, v) this is the specification term for term; what remains is to identify the index functions the
  operations compose with the coordinates (b, t, d), (b, u, d), (d, k), (512 + d, k), (k, v).
-/
import proofs.«140107_j5317169512732_1_alg».proof.Proof.Gen.ReferenceIdeal.Read
import proofs.«140107_j5317169512732_1_alg».proof.Proof.Spec

noncomputable section

namespace Cert.Joint.Ref

open Cert.ReferenceIdeal Cert.ReferenceIdeal.Read Idealize.ShloMosaic Idealize.ShloMosaic.ValueIdx Cert.Joint

/-- The reference's hidden activation at (b, t, u, k) is the specification's. -/
theorem hidden_eq (x0 : FVec Ideal S4x256x512 .f32) (x1 : FVec Ideal S4x128x512 .f32) (x2 : FVec Ideal S1024x512 .f32)
    (x3 : FVec Ideal S512 .f32) (j : S4x256x128x512.Idx) :
    val_main_v12 (F := Ideal) x0 x1 x2 x3 j = hidden x0 x1 x2 x3 (j 0) (j 1) (j 2) (j 3) := by
  have eL (d : Fin 512) : lidx_main_v2 (idx_main_v4 (idx_main_v6 j)) d = ix3 (j 0) (j 1) d :=
    funext fun a => Fin.ext (by match a with | ⟨0, _⟩ => rfl | ⟨1, _⟩ => rfl | ⟨2, _⟩ => rfl)
  have eLw (d : Fin 512) : idx_main_v0 (ridx_main_v2 (idx_main_v4 (idx_main_v6 j)) d) = ix2 (rowEnc d) (j 3) :=
    funext fun a => Fin.ext (by match a with | ⟨0, _⟩ => rfl | ⟨1, _⟩ => rfl)
  have eR (d : Fin 512) : lidx_main_v3 (idx_main_v5 (idx_main_v7 j)) d = ix3 (j 0) (j 2) d :=
    funext fun a => Fin.ext (by match a with | ⟨0, _⟩ => rfl | ⟨1, _⟩ => rfl | ⟨2, _⟩ => rfl)
  have eRw (d : Fin 512) : idx_main_v1 (ridx_main_v3 (idx_main_v5 (idx_main_v7 j)) d) = ix2 (rowDec d) (j 3) :=
    funext fun a => Fin.ext (by match a with | ⟨0, _⟩ => rfl | ⟨1, _⟩ => rfl)
  have eB : idx_main_v9 (idx_main_v10 j) = ix1 (j 3) :=
    funext fun a => Fin.ext (by match a with | ⟨0, _⟩ => rfl)
  rw [val_main_v12_apply, val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, eL, eLw, eR, eRw, eB, Ideal.hostUnary_tanh_def, Ideal.addf_def]
  rfl

/-- The reference's result is the joint network of its six arguments. -/
theorem result_eq (x0 : FVec Ideal S4x256x512 .f32) (x1 : FVec Ideal S4x128x512 .f32) (x2 : FVec Ideal S1024x512 .f32)
    (x3 : FVec Ideal S512 .f32) (x4 : FVec Ideal S512x2048 .f32) (x5 : FVec Ideal S2048 .f32) :
    val_main_v16 (F := Ideal) x0 x1 x2 x3 x4 x5 = logits x0 x1 x2 x3 x4 x5 := by
  funext i
  have eW (k : Fin 512) : ridx_main_v13 i k = ix2 k (i 3) :=
    funext fun a => Fin.ext (by match a with | ⟨0, _⟩ => rfl | ⟨1, _⟩ => rfl)
  have eB : idx_main_v14 (idx_main_v15 i) = ix1 (i 3) :=
    funext fun a => Fin.ext (by match a with | ⟨0, _⟩ => rfl)
  rw [val_main_v16_apply, val_main_v13_apply, val_main_v15_apply, val_main_v14_apply]
  simp only [hidden_eq, eW, eB, Ideal.addf_def]
  rfl

end Cert.Joint.Ref

end
-- ==== Proof.Pieces.lean ====
/-
  What one run of the kernel body leaves behind, as values of what it loaded.

  The body has two cases. At the first vocabulary block of a (batch entry, frame block) it computes the hidden block
  from its five loaded operands, stores it whole into the carried scratch, loads it back, and stores the output
  block computed from it: the scratch ends at the hidden block, the output buffer at the output block of that
  hidden block. At every later vocabulary block it only loads the scratch — what the point before left there — and
  stores the output block computed from it. Each store covers its whole buffer and each load reads a whole buffer,
  so the stored values are the payloads at the loaded contents. Stated for any float instance.
-/
import proofs.«140107_j5317169512732_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Joint.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First vocabulary block: the scratch ends at the hidden block of the five loaded operands. -/
theorem scratch_first (c : Dev nD) (i : grid0.Coords) (arg3 : Memref sig .tc .vmem S1x32x512 .bf16) (harg3 : arg3.IsWhole) (arg4 : Memref sig .tc .vmem S1x128x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x256 .bf16) (harg8 : arg8.IsWhole) (arg9 : Memref sig .tc .vmem S256 .f32) (harg9 : arg9.IsWhole) (arg10 : Memref sig .tc .vmem S1x32x128x256 .f32) (harg10 : arg10.IsWhole) (arg11 : Memref sig .tc .vmem S32x128x512 .bf16) (harg11 : arg11.IsWhole) (hc0 : cond0_0 i)
    (x0 : Vec F S1x32x512 .bf16) (x1 : Vec F S1x128x512 .bf16) (x2 : Vec F S512x512 .bf16) (x3 : Vec F S512x512 .bf16) (x4 : Vec F S512 .f32) (x5 : Vec F S512x256 .bf16) (x6 : Vec F S256 .f32) :
    sout0_A_0 c i arg3 harg3 arg4 harg4 arg5 harg5 arg6 harg6 arg7 harg7 arg8 harg8 arg9 harg9 arg10 harg10 arg11 harg11 hc0 x0 x1 x2 x3 x4 x5 x6 = k0_pay1 x0 x1 x2 x3 x4 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readAt_eq_ld, harg3.read_unread, harg4.read_unread, harg5.read_unread, harg6.read_unread, harg7.read_unread,
    harg8.read_unread, harg9.read_unread, harg11.read_unread, View.ld_unit_zero (S := S1x32x512) hz3, View.ld_unit_zero (S := S1x128x512) hz3,
    View.ld_unit_zero (S := S512x512) hz2, View.ld_unit_zero (S := S512) hz1, View.ld_unit_zero (S := S512x256) hz2,
    View.ld_unit_zero (S := S256) hz1, View.ld_unit_zero (S := S32x128x512) hz3]

/-- First vocabulary block: the output buffer ends at the output block of that hidden block, read back from the scratch. -/
theorem out_first (c : Dev nD) (i : grid0.Coords) (arg3 : Memref sig .tc .vmem S1x32x512 .bf16) (harg3 : arg3.IsWhole) (arg4 : Memref sig .tc .vmem S1x128x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x256 .bf16) (harg8 : arg8.IsWhole) (arg9 : Memref sig .tc .vmem S256 .f32) (harg9 : arg9.IsWhole) (arg10 : Memref sig .tc .vmem S1x32x128x256 .f32) (harg10 : arg10.IsWhole) (arg11 : Memref sig .tc .vmem S32x128x512 .bf16) (harg11 : arg11.IsWhole) (hc0 : cond0_0 i)
    (x0 : Vec F S1x32x512 .bf16) (x1 : Vec F S1x128x512 .bf16) (x2 : Vec F S512x512 .bf16) (x3 : Vec F S512x512 .bf16) (x4 : Vec F S512 .f32) (x5 : Vec F S512x256 .bf16) (x6 : Vec F S256 .f32) :
    out0_A_7 c i arg3 harg3 arg4 harg4 arg5 harg5 arg6 harg6 arg7 harg7 arg8 harg8 arg9 harg9 arg10 harg10 arg11 harg11 hc0 x0 x1 x2 x3 x4 x5 x6 = k0_pay2 (k0_pay1 x0 x1 x2 x3 x4) x5 x6 := by
  unfold out0_A_7
  rw [View.read_writes_eq_canon _ _ _ (cover0_A_7 c i arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero (S := S1x32x128x256) hz4, View.readCov_unit_zero (S := S32x128x512) _ hz3]
  simp only [View.readAt_eq_ld, harg3.read_unread, harg4.read_unread, harg5.read_unread, harg6.read_unread, harg7.read_unread,
    harg8.read_unread, harg9.read_unread, harg11.read_unread, View.ld_unit_zero (S := S1x32x512) hz3, View.ld_unit_zero (S := S1x128x512) hz3,
    View.ld_unit_zero (S := S512x512) hz2, View.ld_unit_zero (S := S512) hz1, View.ld_unit_zero (S := S512x256) hz2,
    View.ld_unit_zero (S := S256) hz1, View.ld_unit_zero (S := S32x128x512) hz3]

/-- A later vocabulary block: the output buffer ends at the output block of what the scratch held. -/
theorem out_later (c : Dev nD) (i : grid0.Coords) (arg3 : Memref sig .tc .vmem S1x32x512 .bf16) (harg3 : arg3.IsWhole) (arg4 : Memref sig .tc .vmem S1x128x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512 .f32) (harg7 : arg7.IsWhole) (arg8 : Memref sig .tc .vmem S512x256 .bf16) (harg8 : arg8.IsWhole) (arg9 : Memref sig .tc .vmem S256 .f32) (harg9 : arg9.IsWhole) (arg10 : Memref sig .tc .vmem S1x32x128x256 .f32) (harg10 : arg10.IsWhole) (arg11 : Memref sig .tc .vmem S32x128x512 .bf16) (harg11 : arg11.IsWhole) (hc0 : ¬cond0_0 i)
    (x0 : Vec F S1x32x512 .bf16) (x1 : Vec F S1x128x512 .bf16) (x2 : Vec F S512x512 .bf16) (x3 : Vec F S512x512 .bf16) (x4 : Vec F S512 .f32) (x5 : Vec F S512x256 .bf16) (x6 : Vec F S256 .f32) (xs0 : Vec F S32x128x512 .bf16) :
    out0_B_7 c i arg3 harg3 arg4 harg4 arg5 harg5 arg6 harg6 arg7 harg7 arg8 harg8 arg9 harg9 arg10 harg10 arg11 harg11 hc0 x0 x1 x2 x3 x4 x5 x6 xs0 = k0_pay2 xs0 x5 x6 := by
  unfold out0_B_7
  rw [View.read_writes_eq_canon _ _ _ (cover0_B_7 c i arg3 harg3 arg4 harg4 arg5 harg5 arg6 harg6 arg7 harg7 arg8 harg8 arg9 harg9 arg10 harg10 arg11 harg11 hc0 x0 x1 x2 x3 x4 x5 x6 xs0)]
  unfold kernelRun0_B
  dsimp only
  sl_unfold_words
  rw [View.canon_unit_zero (S := S1x32x128x256) hz4]
  simp only [View.readAt_eq_ld, harg3.read_unread, harg4.read_unread, harg5.read_unread, harg6.read_unread, harg7.read_unread,
    harg8.read_unread, harg9.read_unread, harg11.read_unread, View.ld_unit_zero (S := S1x32x512) hz3, View.ld_unit_zero (S := S1x128x512) hz3,
    View.ld_unit_zero (S := S512x512) hz2, View.ld_unit_zero (S := S512) hz1, View.ld_unit_zero (S := S512x256) hz2,
    View.ld_unit_zero (S := S256) hz1, View.ld_unit_zero (S := S32x128x512) hz3]

end Cert.Joint.Pieces

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRank3Layout.lean ====
/-
  Rank-3 layout operations read at coordinates: what a body that spreads two matrices and a vector over a
  three-axis block, and flattens that block's two leading axes into the rows of a matrix product, needs.

  * an [a, c] matrix given a unit middle axis, [a, 1, c], and spread along it to [a, b, c]: entry (i, j, k) is the
    matrix's (i, k);
  * a [b, c] matrix given a unit leading axis, [1, b, c] (the library's `shapeCast_ab_1ab_apply`), and spread along it
    to [a, b, c]: entry (i, j, k) is the matrix's (j, k);
  * a vector [c] given two unit leading axes, [1, 1, c], and spread to [a, b, c]: entry (i, j, k) is the vector's k;
  * an [a, b, c] block read as the matrix [a·b, c] and back: row `i·b + j` of the matrix is the block's (i, j).

  All are general in the extents; the flattened row count is any `m` with the row given as `p = i·b + j`.
-/
import Idealize.ShloMosaic.Lib.ValueIdx
import Idealize.ShloMosaic.Lib.Pipeline.Value

namespace Idealize.ShloMosaic.ValueRank3

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A vector `[c]` cast to `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b, c]` block cast to a matrix `[m, c]` reads, at row `p = i·b + j` and column `k`, the block at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (p : Fin m)
    (hp : p.val = i.val * b + j.val) :
    shapeCast ⟨2, ![m, c]⟩ x h (ix2 p k) = x (ix3 i j k) :=
  shapeCast_apply x h _ _ (by
    rw [Shape.rowMajor_val_three, Shape.rowMajor_val_two]
    show (i.val * b + j.val) * c + k.val = p.val * c + k.val
    rw [hp])

/-- A matrix `[m, c]` cast to an `[a, b, c]` block reads, at `(i, j, k)`, the matrix at row `p = i·b + j`, column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (p : Fin m)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueRank3
-- ==== Proof.Payload.lean ====
/-
  The kernel body's two stored values, read at an entry on the extended reals.

  The body keeps the hidden activation of one (batch entry, block of 32 encoder frames) in a [32, 128, 512] block:
  entry (r, u, k) is tanh of row r of the encoder block's projection plus row u of the decoder block's projection plus
  the bias at k — the two projections are matrix products into a zero accumulator, spread over the (r, u) plane by a
  unit axis and a broadcast each, the bias by two unit axes and a broadcast. From that block, flattened to the
  4096 = 32·128 rows of a matrix, and one 256-column block of the second layer's weight, the body stores the
  [1, 32, 128, 256] output block: entry (0, r, u, v) is the contraction over the 512 hidden units of row r·128 + u
  with column v, plus the second bias at v. A change of float format is the identity here.
-/
import proofs.«140107_j5317169512732_1_alg».proof.Proof.Gen.KernelIdeal.Skeleton
import proofs.«140107_j5317169512732_1_alg».proof.Proof.LibPlainDot
import proofs.«140107_j5317169512732_1_alg».proof.Proof.LibRank3Layout
import Idealize.ShloMosaic.Lib.ValueLayout
import Idealize.ShloMosaic.PureOps.Ideal.Laws

noncomputable section

namespace Cert.Joint.Body

open Cert.KernelIdeal Cert.KernelIdeal.Gen Idealize.ShloMosaic Idealize.ShloMosaic.ValueIdx
  Idealize.ShloMosaic.ValueRank3

/-- The hidden block at (r, u, k): tanh of the two projections' rows r and u at column k, plus the bias at k. -/
theorem hidden_block (x0 : Vec Ideal S1x32x512 .bf16) (x1 : Vec Ideal S1x128x512 .bf16) (x2 x3 : Vec Ideal S512x512 .bf16)
    (x4 : Vec Ideal S512 .f32) (r : Fin 32) (u : Fin 128) (k : Fin 512) :
    k0_pay1 (F := Ideal) x0 x1 x2 x3 x4 (ix3 r u k)
      = Ideal.tanh ((∑ d : Fin 512, x0 (ix3 (0 : Fin 1) r d) * x2 (ix2 d k))
          + (∑ d : Fin 512, x1 (ix3 (0 : Fin 1) u d) * x3 (ix2 d k)) + x4 (ix1 k)) := by
  unfold k0_pay1
  rw [shapeCast_self]
  show Ideal.tanh (_ + _ + _) = _
  refine congrArg Ideal.tanh (congrArg₂ (· + ·) (congrArg₂ (· + ·) ?_ ?_) ?_)
  · refine (broadcastTo_a1c_abc_apply _ _ r u k).trans ?_
    refine (shapeCast_ac_a1c_apply _ _ r 0 k).trans ?_
    refine (Cert.Lib.PlainDot.matmul_zero_apply none _ _ r k).trans ?_
    refine Finset.sum_congr rfl fun d _ => ?_
    rw [shapeCast_1ab_ab_apply, shapeCast_self]
  · refine (broadcastTo_1bc_abc_apply _ _ r u k).trans ?_
    refine (shapeCast_ab_1ab_apply _ _ 0 u k).trans ?_
    refine (Cert.Lib.PlainDot.matmul_zero_apply none _ _ u k).trans ?_
    refine Finset.sum_congr rfl fun d _ => ?_
    rw [shapeCast_1ab_ab_apply, shapeCast_self]
  · refine (broadcastTo_11c_abc_apply _ _ r u k).trans ?_
    exact shapeCast_c_11c_apply _ _ 0 0 k

/-- The output block at (0, r, u, v): the hidden block's row (r, u) through the weight block's column v, plus the bias. -/
theorem logits_block (h : Vec Ideal S32x128x512 .bf16) (x5 : Vec Ideal S512x256 .bf16) (x6 : Vec Ideal S256 .f32)
    (u0 : Fin 1) (r : Fin 32) (u : Fin 128) (v : Fin 256) :
    k0_pay2 (F := Ideal) h x5 x6 (ix4 u0 r u v) = (∑ k : Fin 512, h (ix3 r u k) * x5 (ix2 k v)) + x6 (ix1 v) := by
  have hp : r.val * 128 + u.val < 4096 := by have := r.isLt; have := u.isLt; omega
  unfold k0_pay2
  refine (shapeCast_abc_1abc_apply _ _ u0 r u v).trans ?_
  refine (shapeCast_mc_abc_apply _ _ r u v ⟨r.val * 128 + u.val, hp⟩ rfl).trans ?_
  refine (addf_apply _ _ _).trans (congrArg₂ (· + ·) ?_ ?_)
  · refine (Cert.Lib.PlainDot.matmul_zero_apply none _ _ _ v).trans ?_
    refine Finset.sum_congr rfl fun k _ => ?_
    rw [shapeCast_abc_mc_apply h _ r u k ⟨r.val * 128 + u.val, hp⟩ rfl, shapeCast_self]
  · refine (broadcastTo_1b_ab_apply _ _ _ v).trans ?_
    exact shapeCast_a_1a_apply _ _ 0 v

end Cert.Joint.Body

end
-- ==== Proof.Blocks.lean ====
/-
  The kernel's windows, read at an entry of the argument arrays.

  The grid has 4·8·8 points; point t works on batch entry t / 64, the block of 32 encoder frames number t / 8 mod 8 and
  the block of 256 vocabulary entries number t mod 8. Its windows hold: rows 32·(t / 8 mod 8) … of the encoder's state
  of that batch entry; the decoder's state of that batch entry; the two halves of the first layer's weight and its
  bias, whole; columns 256·(t mod 8) … of the second layer's weight and that stretch of its bias. The arrays the
  windows are cut from are written by the host before the call: changes of float format (the identity on the
  extended reals) of the arguments, and of the two row halves of the first layer's weight.
-/
import proofs.«140107_j5317169512732_1_alg».proof.Proof.Gen.KernelIdeal.Frame
import proofs.«140107_j5317169512732_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

namespace Cert.Joint.Blocks

open Cert.KernelIdeal Cert.KernelIdeal.Gen Idealize.ShloMosaic.ValueIdx Cert.Joint

variable (m : (ℓ : Loc nD τ sig) → Buf (Elt Ideal) ℓ)

/-- Where each window's block sits at point `t`, per axis: decided once over the 256 points. -/
theorem index_facts : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = t.val % 8
    ∧ win0_6.index t (0 : Fin 1) = t.val % 8
    ∧ win0_7.index t (0 : Fin 4) = t.val / 64 ∧ win0_7.index t (1 : Fin 4) = t.val / 8 % 8
    ∧ win0_7.index t (2 : Fin 4) = 0 ∧ win0_7.index t (3 : Fin 4) = t.val % 8 :=
  (by decide +kernel : ∀ t : Fin grid0.N, _)

/-! ## The arrays the host wrote before the call, at an entry -/

theorem enc_at (c : Dev nD) (k : S4x256x512.Idx) :
    V m c main_v4 k = m ((c : Thread nD τ).loc main_arg0) k := by
  have e : @Eq (S4x256x512.Idx → EReal) (V m c main_v4) (truncf (F := Ideal) (φ := .f32) .bf16 (m ((c : Thread nD τ).loc main_arg0)) bitsLt_bf16_f32) := by
    dsimp only [V, hostOps0]; after_results
  exact congrFun e k

theorem dec_at (c : Dev nD) (k : S4x128x512.Idx) :
    V m c main_v5 k = m ((c : Thread nD τ).loc main_arg1) k := by
  have e : @Eq (S4x128x512.Idx → EReal) (V m c main_v5) (truncf (F := Ideal) (φ := .f32) .bf16 (m ((c : Thread nD τ).loc main_arg1)) bitsLt_bf16_f32) := by
    dsimp only [V, hostOps0]; after_results
  exact congrFun e k

theorem w2_at (c : Dev nD) (k : S512x2048.Idx) :
    V m c main_v6 k = m ((c : Thread nD τ).loc main_arg4) k := by
  have e : @Eq (S512x2048.Idx → EReal) (V m c main_v6) (truncf (F := Ideal) (φ := .f32) .bf16 (m ((c : Thread nD τ).loc main_arg4)) bitsLt_bf16_f32) := by
    dsimp only [V, hostOps0]; after_results
  exact congrFun e k

/-- The upper half of the first layer's weight: row `d`. -/
theorem w1enc_at (c : Dev nD) (d k : Fin 512) :
    V m c main_v1 (ix2 d k) = m ((c : Thread nD τ).loc main_arg2) (ix2 (rowEnc d) k) := by
  have e : @Eq (S512x512.Idx → EReal) (V m c main_v1) (truncf (F := Ideal) (φ := .f32) .bf16 (extractStridedSlice S512x512 ![0, 0] (m ((c : Thread nD τ).loc main_arg2)) slices_S1024x512_S512x512_0_0) bitsLt_bf16_f32) := by
    dsimp only [V, hostOps0]; after_results
  refine (congrFun e _).trans ?_
  refine (extractStridedSlice_apply ![0, 0] _ slices_S1024x512_S512x512_0_0 (ix2 d k) (ix2 (rowEnc d) k) fun a => ?_)
  match a with
  | ⟨0, _⟩ => show d.val = 0 + d.val; omega
  | ⟨1, _⟩ => show k.val = 0 + k.val; omega

/-- The lower half of the first layer's weight: row `512 + d`. -/
theorem w1dec_at (c : Dev nD) (d k : Fin 512) :
    V m c main_v3 (ix2 d k) = m ((c : Thread nD τ).loc main_arg2) (ix2 (rowDec d) k) := by
  have e : @Eq (S512x512.Idx → EReal) (V m c main_v3) (truncf (F := Ideal) (φ := .f32) .bf16 (extractStridedSlice S512x512 ![512, 0] (m ((c : Thread nD τ).loc main_arg2)) slices_S1024x512_S512x512_512_0) bitsLt_bf16_f32) := by
    dsimp only [V, hostOps0]; after_results
  refine (congrFun e _).trans ?_
  refine (extractStridedSlice_apply ![512, 0] _ slices_S1024x512_S512x512_512_0 (ix2 d k) (ix2 (rowDec d) k) fun a => ?_)
  match a with
  | ⟨0, _⟩ => show 512 + d.val = 512 + d.val; rfl
  | ⟨1, _⟩ => show k.val = 0 + k.val; omega

/-! ## The windows' blocks at a point, at an entry -/

/-- The encoder block: frame `32·(t / 8 mod 8) + r` of batch entry `t / 64`. -/
theorem encBlock_at (c : Dev nD) (t : Fin cfg0.N) (u0 : Fin 1) (r : Fin 32) (d : Fin 512) (b : Fin 4) (f : Fin 256)
    (hb : b.val = t.val / 64) (hf : f.val = 32 * (t.val / 8 % 8) + r.val) :
    (iblk m c 0 t : Vec Ideal S1x32x512 .bf16) (ix3 u0 r d) = m ((c : Thread nD τ).loc main_arg0) (ix3 b f d) := by
  obtain ⟨e0, e1, e2, -⟩ := index_facts t
  rw [← enc_at m c]
  unfold iblk
  rw [View.read_apply]
  show V m c main_v4 _ = V m c main_v4 _
  congr 1
  funext a; apply Fin.ext
  match a with
  | ⟨0, _⟩ => show win0_0.index t (0 : Fin 3) * 1 + 1 * u0.val = b.val; have := u0.isLt; omega
  | ⟨1, _⟩ => show win0_0.index t (1 : Fin 3) * 32 + 1 * r.val = f.val; omega
  | ⟨2, _⟩ => show win0_0.index t (2 : Fin 3) * 512 + 1 * d.val = d.val; omega

/-- The decoder block: batch entry `t / 64`, whole. -/
theorem decBlock_at (c : Dev nD) (t : Fin cfg0.N) (u0 : Fin 1) (u : Fin 128) (d : Fin 512) (b : Fin 4)
    (hb : b.val = t.val / 64) :
    (iblk m c 1 t : Vec Ideal S1x128x512 .bf16) (ix3 u0 u d) = m ((c : Thread nD τ).loc main_arg1) (ix3 b u d) := by
  obtain ⟨-, -, -, e0, e1, e2, -⟩ := index_facts t
  rw [← dec_at m c]
  unfold iblk
  rw [View.read_apply]
  show V m c main_v5 _ = V m c main_v5 _
  congr 1
  funext a; apply Fin.ext
  match a with
  | ⟨0, _⟩ => show win0_1.index t (0 : Fin 3) * 1 + 1 * u0.val = b.val; have := u0.isLt; omega
  | ⟨1, _⟩ => show win0_1.index t (1 : Fin 3) * 128 + 1 * u.val = u.val; omega
  | ⟨2, _⟩ => show win0_1.index t (2 : Fin 3) * 512 + 1 * d.val = d.val; omega

/-- The upper half of the first layer's weight, whole at every point. -/
theorem w1encBlock_at (c : Dev nD) (t : Fin cfg0.N) (d k : Fin 512) :
    (iblk m c 2 t : Vec Ideal S512x512 .bf16) (ix2 d k) = m ((c : Thread nD τ).loc main_arg2) (ix2 (rowEnc d) k) := by
  obtain ⟨-, -, -, -, -, -, e0, e1, -⟩ := index_facts t
  rw [← w1enc_at m c]
  unfold iblk
  rw [View.read_apply]
  show V m c main_v1 _ = V m c main_v1 _
  congr 1
  funext a; apply Fin.ext
  match a with
  | ⟨0, _⟩ => show win0_2.index t (0 : Fin 2) * 512 + 1 * d.val = d.val; omega
  | ⟨1, _⟩ => show win0_2.index t (1 : Fin 2) * 512 + 1 * k.val = k.val; omega

/-- The lower half of the first layer's weight, whole at every point. -/
theorem w1decBlock_at (c : Dev nD) (t : Fin cfg0.N) (d k : Fin 512) :
    (iblk m c 3 t : Vec Ideal S512x512 .bf16) (ix2 d k) = m ((c : Thread nD τ).loc main_arg2) (ix2 (rowDec d) k) := by
  obtain ⟨-, -, -, -, -, -, -, -, e0, e1, -⟩ := index_facts t
  rw [← w1dec_at m c]
  unfold iblk
  rw [View.read_apply]
  show V m c main_v3 _ = V m c main_v3 _
  congr 1
  funext a; apply Fin.ext
  match a with
  | ⟨0, _⟩ => show win0_3.index t (0 : Fin 2) * 512 + 1 * d.val = d.val; omega
  | ⟨1, _⟩ => show win0_3.index t (1 : Fin 2) * 512 + 1 * k.val = k.val; omega

/-- The first layer's bias, whole at every point. -/
theorem b1Block_at (c : Dev nD) (t : Fin cfg0.N) (k : Fin 512) :
    (iblk m c 4 t : Vec Ideal S512 .f32) (ix1 k) = m ((c : Thread nD τ).loc main_arg3) (ix1 k) := by
  obtain ⟨-, -, -, -, -, -, -, -, -, -, e0, -⟩ := index_facts t
  rw [← V_main_arg3 m c]
  unfold iblk
  rw [View.read_apply]
  show V m c main_arg3 _ = V m c main_arg3 _
  congr 1
  funext a; apply Fin.ext
  match a with
  | ⟨0, _⟩ => show win0_4.index t (0 : Fin 1) * 512 + 1 * k.val = k.val; omega

/-- The second layer's weight block: columns `256·(t mod 8) + v`. -/
theorem w2Block_at (c : Dev nD) (t : Fin cfg0.N) (k : Fin 512) (v : Fin 256) (w : Fin 2048)
    (hw : w.val = 256 * (t.val % 8) + v.val) :
    (iblk m c 5 t : Vec Ideal S512x256 .bf16) (ix2 k v) = m ((c : Thread nD τ).loc main_arg4) (ix2 k w) := by
  obtain ⟨-, -, -, -, -, -, -, -, -, -, -, e0, e1, -⟩ := index_facts t
  rw [← w2_at m c]
  unfold iblk
  rw [View.read_apply]
  show V m c main_v6 _ = V m c main_v6 _
  congr 1
  funext a; apply Fin.ext
  match a with
  | ⟨0, _⟩ => show win0_5.index t (0 : Fin 2) * 512 + 1 * k.val = k.val; omega
  | ⟨1, _⟩ => show win0_5.index t (1 : Fin 2) * 256 + 1 * v.val = w.val; omega

/-- The second layer's bias block: entries `256·(t mod 8) + v`. -/
theorem b2Block_at (c : Dev nD) (t : Fin cfg0.N) (v : Fin 256) (w : Fin 2048)
    (hw : w.val = 256 * (t.val % 8) + v.val) :
    (iblk m c 6 t : Vec Ideal S256 .f32) (ix1 v) = m ((c : Thread nD τ).loc main_arg5) (ix1 w) := by
  obtain ⟨-, -, -, -, -, -, -, -, -, -, -, -, -, e0, -⟩ := index_facts t
  rw [← V_main_arg5 m c]
  unfold iblk
  rw [View.read_apply]
  show V m c main_arg5 _ = V m c main_arg5 _
  congr 1
  funext a; apply Fin.ext
  match a with
  | ⟨0, _⟩ => show win0_6.index t (0 : Fin 1) * 256 + 1 * v.val = w.val; omega

end Cert.Joint.Blocks

end
-- ==== Proof.Carried.lean ====
/-
  What the carried scratch and the output buffer hold after each grid point.

  The vocabulary axis is the fastest of the grid: points 8q, 8q + 1, …, 8q + 7 share a batch entry (q / 8) and a block of
  32 encoder frames (q mod 8) and run through the eight vocabulary blocks. The scratch is written at 8q only and
  carried through the seven points after it, so after ANY point n it holds the hidden activations of batch entry
  n / 64 at frames 32·(n / 8 mod 8) + r: by induction on n — at a multiple of 8 the body has just computed them from
  the point's own blocks; elsewhere the scratch is what the point before left, and the point before has the same batch
  entry and frame block. The output buffer after point n is then the logits at those frames and at the vocabulary
  entries 256·(n mod 8) + v.
-/
import proofs.«140107_j5317169512732_1_alg».proof.Proof.Pieces
import proofs.«140107_j5317169512732_1_alg».proof.Proof.Payload
import proofs.«140107_j5317169512732_1_alg».proof.Proof.Blocks

noncomputable section

open Idealize.ShloMosaic Idealize.ShloMosaic.TcCoe Idealize.SL.Sem

namespace Cert.Joint.Carried

open Cert.KernelIdeal Cert.KernelIdeal.Gen Idealize.ShloMosaic.ValueIdx Cert.Joint

variable (m : (ℓ : Loc nD τ sig) → Buf (Elt Ideal) ℓ)

/-- At the first vocabulary block the scratch ends at the hidden block of the point's own input blocks. -/
theorem scratch_first_at (c : Dev nD) (t : Fin cfg0.N) (h0 : t.val % 8 = 0) :
    (outsAt0 m c t.val t.isLt).2
      = k0_pay1 (iblk m c 0 t) (iblk m c 1 t) (iblk m c 2 t) (iblk m c 3 t) (iblk m c 4 t) := by
  rw [outsAt0_A m c t h0]
  dsimp only
  exact Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)

/-- At a later vocabulary block the scratch is what the point before left. -/
theorem scratch_later_at (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- At every point the output buffer ends at the output block of what the scratch then holds. -/
theorem out_of_scratch (c : Dev nD) (t : Fin cfg0.N) :
    (outsAt0 m c t.val t.isLt).1 = k0_pay2 (outsAt0 m c t.val t.isLt).2 (iblk m c 5 t) (iblk m c 6 t) := by
  by_cases h0 : t.val % 8 = 0
  · rw [scratch_first_at m c t h0, outsAt0_A m c t h0]
    dsimp only
    exact Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)
  · rw [scratch_later_at m c t h0, outsAt0_B m c t h0]
    dsimp only
    exact Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2

/-- THE CARRIED SCRATCH after point `n`: the hidden activations of batch entry `n / 64` at frames
    `32·(n / 8 mod 8) + r`. -/
theorem scratch_at (c : Dev nD) (n : ℕ) : ∀ (h : n < cfg0.N) (r : Fin 32) (u : Fin 128) (k : Fin 512) (b : Fin 4) (f : Fin 256),
    b.val = n / 64 → f.val = 32 * (n / 8 % 8) + r.val →
    (outsAt0 m c n h).2 (ix3 r u k)
      = hidden (m ((c : Thread nD τ).loc main_arg0)) (m ((c : Thread nD τ).loc main_arg1))
          (m ((c : Thread nD τ).loc main_arg2)) (m ((c : Thread nD τ).loc main_arg3)) b f u k := by
  induction n using Nat.strong_induction_on with
  | _ n ih =>
    intro h r u k b f hb hf
    by_cases h0 : n % 8 = 0
    · refine (congrFun (scratch_first_at m c ⟨n, h⟩ h0) (ix3 r u k)).trans ?_
      refine (Body.hidden_block (iblk m c 0 ⟨n, h⟩) (iblk m c 1 ⟨n, h⟩) (iblk m c 2 ⟨n, h⟩) (iblk m c 3 ⟨n, h⟩)
        (iblk m c 4 ⟨n, h⟩) r u k).trans ?_
      unfold hidden
      refine congrArg Ideal.tanh (congrArg₂ (· + ·) (congrArg₂ (· + ·) ?_ ?_) ?_)
      · exact Finset.sum_congr rfl fun d _ => congrArg₂ (· * ·)
          (Blocks.encBlock_at m c ⟨n, h⟩ 0 r d b f hb hf) (Blocks.w1encBlock_at m c ⟨n, h⟩ d k)
      · exact Finset.sum_congr rfl fun d _ => congrArg₂ (· * ·)
          (Blocks.decBlock_at m c ⟨n, h⟩ 0 u d b hb) (Blocks.w1decBlock_at m c ⟨n, h⟩ d k)
      · exact Blocks.b1Block_at m c ⟨n, h⟩ k
    · refine (congrFun (scratch_later_at m c ⟨n, h⟩ h0) (ix3 r u k)).trans ?_
      exact ih (n - 1) (by omega) _ r u k b f (by omega) (by omega)

/-- THE OUTPUT BUFFER after point `t`: the logits of batch entry `t / 64` at frames `32·(t / 8 mod 8) + r` and
    vocabulary entries `256·(t mod 8) + v`. -/
theorem out_at (c : Dev nD) (t : Fin cfg0.N) (u0 : Fin 1) (r : Fin 32) (u : Fin 128) (v : Fin 256)
    (b : Fin 4) (f : Fin 256) (w : Fin 2048)
    (hb : b.val = t.val / 64) (hf : f.val = 32 * (t.val / 8 % 8) + r.val) (hw : w.val = 256 * (t.val % 8) + v.val) :
    (outsAt0 m c t.val t.isLt).1 (ix4 u0 r u v)
      = logits (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (ix4 b f u w) := by
  refine (congrFun (out_of_scratch m c t) (ix4 u0 r u v)).trans ?_
  refine (Body.logits_block (outsAt0 m c t.val t.isLt).2 (iblk m c 5 t) (iblk m c 6 t) u0 r u v).trans ?_
  exact congrArg₂ (· + ·)
    (Finset.sum_congr rfl fun k _ => congrArg₂ (· * ·) (scratch_at m c t.val t.isLt r u k b f hb hf)
      (Blocks.w2Block_at m c t k v w hw))
    (Blocks.b2Block_at m c t v w hw)

end Cert.Joint.Carried

end
-- ==== Proof.Final.lean ====
/-
  The kernel's result array after the run is the joint network of the six arguments.

  Every grid point writes its [1, 32, 128, 256] output block back to the result at batch entry t / 64, frames
  32·(t / 8 mod 8) …, vocabulary entries 256·(t mod 8) …; what it writes is that block of the logits (`Carried.out_at`).
  The 256 blocks tile the [4, 256, 128, 2048] result: the entry (b, f, u, w) lies in the block of the point
  64·b + 8·(f / 32) + w / 256. So the array ends at the logits everywhere.
-/
import proofs.«140107_j5317169512732_1_alg».proof.Proof.Carried
import proofs.«140107_j5317169512732_1_alg».proof.Proof.Gen.KernelIdeal.Value

noncomputable section

open Idealize.ShloMosaic Idealize.ShloMosaic.TcCoe Idealize.SL.Sem
open Idealize.ShloMosaic.Pipeline (Dat)

namespace Cert.Joint.Final

open Cert.KernelIdeal Cert.KernelIdeal.Gen Idealize.ShloMosaic.ValueIdx Cert.Joint

variable (m : (ℓ : Loc nD τ sig) → Buf (Elt Ideal) ℓ) (ρ : Dev nD → PrngReg)

/-- The logits of the six argument arrays on core `c`, as contents of the result array. -/
abbrev result (c : Dev nD) : Buf (Elt Ideal) ((c : Thread nD τ).loc main_v7) :=
  logits (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- An index of the output block, by its coordinates. -/
theorem exists_ix4 (y : S1x32x128x256.Idx) :
    ∃ (u0 : Fin 1) (r : Fin 32) (u : Fin 128) (v : Fin 256), y = ix4 u0 r u v :=
  ⟨y 0, y 1, y 2, y 3, eq_ix4 y⟩

/-- WHAT POINT `t` WRITES BACK is block `t` of the logits. -/
theorem flushed_eq (c : Dev nD) (t : Fin cfg0.N) :
    (dats m 0 c).flushed 7 t = ((cfg0.win 7).blk t).view.read (Elt Ideal) (result m c) := by
  obtain ⟨-, -, -, -, -, -, -, -, -, -, -, -, -, -, e0, e1, e2, e3⟩ := Blocks.index_facts t
  have hN : t.val < 256 := lt_of_lt_of_eq t.isLt (show cfg0.N = 256 from N_0)
  rw [Cert.KernelIdeal.Value.flushed7]
  funext y
  obtain ⟨u0, r, u, v, rfl⟩ := exists_ix4 y
  have hu0 : u0.val = 0 := by omega
  have hr := r.isLt
  have hv := v.isLt
  refine (Carried.out_at m c t u0 r u v ⟨t.val / 64, by omega⟩ ⟨32 * (t.val / 8 % 8) + r.val, by omega⟩
    ⟨256 * (t.val % 8) + v.val, by omega⟩ rfl rfl rfl).trans ?_
  show result m c _ = result m c (((cfg0.win 7).blk t).view.emb (ix4 u0 r u v))
  refine congrArg (result m c) (funext fun a => Fin.ext ?_)
  match a with
  | ⟨0, _⟩ => show t.val / 64 = win0_7.index t (0 : Fin 4) * 1 + 1 * u0.val; omega
  | ⟨1, _⟩ => show 32 * (t.val / 8 % 8) + r.val = win0_7.index t (1 : Fin 4) * 32 + 1 * r.val; omega
  | ⟨2, _⟩ => show u.val = win0_7.index t (2 : Fin 4) * 128 + 1 * u.val; omega
  | ⟨3, _⟩ => show 256 * (t.val % 8) + v.val = win0_7.index t (3 : Fin 4) * 256 + 1 * v.val; omega

/-- An index of the result is in point `t`'s block iff each coordinate is in the block's range on its axis. -/
theorem mem_blk (t : Fin cfg0.N) (i : S4x256x128x2048.Idx) :
    i ∈ ((cfg0.win 7).blk t).view.set ↔ ∀ a : Fin 4, win0_7.index t a * S1x32x128x256.size a ≤ (i a).val
      ∧ (i a).val < win0_7.index t a * S1x32x128x256.size a + S1x32x128x256.size a := by
  show i ∈ ((View.whole main_v7).slice (win0_7.rect t)).set ↔ _
  rw [View.set_slice_whole, Rect.mem_set_unit]
  exact Iff.rfl

/-- Every entry of the result lies in the block of the point of its batch entry, frame block and vocabulary block. -/
theorem cover (i : S4x256x128x2048.Idx) :
    ∃ t : Fin cfg0.N, (cfg0.win 7).flush t = true ∧ i ∈ ((cfg0.win 7).blk t).view.set := by
  have h0 : (i 0).val < 4 := (i 0).isLt
  have h1 : (i 1).val < 256 := (i 1).isLt
  have h2 : (i 2).val < 128 := (i 2).isLt
  have h3 : (i 3).val < 2048 := (i 3).isLt
  have hN : cfg0.N = 256 := N_0
  obtain ⟨n, hn⟩ : ∃ n : ℕ, n = 64 * (i 0).val + 8 * ((i 1).val / 32) + (i 3).val / 256 := ⟨_, rfl⟩
  have hlt : n < cfg0.N := by rw [hN]; omega
  obtain ⟨-, -, -, -, -, -, -, -, -, -, -, -, -, -, e0, e1, e2, e3⟩ := Blocks.index_facts ⟨n, hlt⟩
  have e0' : win0_7.index ⟨n, hlt⟩ (0 : Fin 4) = n / 64 := e0
  have e1' : win0_7.index ⟨n, hlt⟩ (1 : Fin 4) = n / 8 % 8 := e1
  have e3' : win0_7.index ⟨n, hlt⟩ (3 : Fin 4) = n % 8 := e3
  refine ⟨⟨n, hlt⟩, flush0_7 _, ?_⟩
  rw [mem_blk]
  intro a
  match a with
  | ⟨0, _⟩ =>
    show win0_7.index ⟨n, hlt⟩ (0 : Fin 4) * 1 ≤ (i 0).val ∧ (i 0).val < win0_7.index ⟨n, hlt⟩ (0 : Fin 4) * 1 + 1
    omega
  | ⟨1, _⟩ =>
    show win0_7.index ⟨n, hlt⟩ (1 : Fin 4) * 32 ≤ (i 1).val ∧ (i 1).val < win0_7.index ⟨n, hlt⟩ (1 : Fin 4) * 32 + 32
    omega
  | ⟨2, _⟩ =>
    show win0_7.index ⟨n, hlt⟩ (2 : Fin 4) * 128 ≤ (i 2).val ∧ (i 2).val < win0_7.index ⟨n, hlt⟩ (2 : Fin 4) * 128 + 128
    omega
  | ⟨3, _⟩ =>
    show win0_7.index ⟨n, hlt⟩ (3 : Fin 4) * 256 ≤ (i 3).val ∧ (i 3).val < win0_7.index ⟨n, hlt⟩ (3 : Fin 4) * 256 + 256
    omega

/-- THE RESULT ARRAY after the run: the logits of the argument arrays. -/
theorem final (c : Dev nD) : (dats m 0 c).arrAt 7 cfg0.N = result m c :=
  (dats m 0 c).arrAt_eq_of_cover 7 (result m c) (fun t _ => flushed_eq m c t) cover

/-- The run, read: the result array at the logits of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Joint.Final

end
-- ==== Proof.lean ====
/-
  The certificate of a transducer's joint network: a kernel that tiles the output over (batch entry, block of 32
  encoder frames, block of 256 vocabulary entries) and keeps the hidden activation tanh(enc·W1ₑ + dec·W1_d + b1) of
  a (batch entry, frame block) in a scratch buffer across the eight vocabulary blocks, against the plain formula
  logits = tanh(enc·W1ₑ + dec·W1_d + b1)·W2 + b2.

  On the extended reals both programs compute, at every (b, t, u, v), the same term with the same grouping of the
  additions (`Spec.lean`): the reference read one operation at a time (`RefSide.lean`), the kernel through what its
  body stores (`Pieces.lean`, `Payload.lean`), where its windows sit (`Blocks.lean`), what the carried scratch holds
  after each point (`Carried.lean`) and the tiling of the result by the points' blocks (`Final.lean`). The inputs'
  finiteness is not used. The three frames are the generated runs; the idealization rewrote nothing.
-/
import proofs.«140107_j5317169512732_1_alg».proof.Defs
import proofs.«140107_j5317169512732_1_alg».proof.Proof.Gen.Kernel
import proofs.«140107_j5317169512732_1_alg».proof.Proof.Gen.Kernel.Frame
import proofs.«140107_j5317169512732_1_alg».proof.Proof.Gen.KernelIdeal
import proofs.«140107_j5317169512732_1_alg».proof.Proof.Gen.KernelIdeal.Frame
import proofs.«140107_j5317169512732_1_alg».proof.Proof.Gen.KernelIdeal.Value
import proofs.«140107_j5317169512732_1_alg».proof.Proof.Gen.ReferenceIdeal
import proofs.«140107_j5317169512732_1_alg».proof.Proof.Gen.ReferenceIdeal.Run
import proofs.«140107_j5317169512732_1_alg».proof.Proof.Gen.ReferenceIdeal.Read
import proofs.«140107_j5317169512732_1_alg».proof.Proof.Gen.Pre_finite_inputs
import proofs.«140107_j5317169512732_1_alg».proof.Proof.RefSide
import proofs.«140107_j5317169512732_1_alg».proof.Proof.Final
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  -- the word-level kernel runs and keeps its arguments
  fun m ρ _ => Cert.Kernel.Gen.frame m ρ,
  -- so does its reading on the extended reals
  fun m ρ _ => Cert.KernelIdeal.Gen.frame m ρ,
  -- and the reference: its run with the result dropped
  fun m ρ _ => (θ_run Cert.ReferenceIdeal.defs _ _).mono (fun _ h c => (h c).2)
    (Cert.ReferenceIdeal.Value.run (F := Ideal) m ρ),
  -- the idealization rewrote nothing
  trivial,
  -- both runs end at the logits of arguments that agree
  fun m ρ m' ρ' _ hagree => ⟨fun c => Cert.Joint.Final.result m c, Cert.Joint.Final.run m ρ,
    (θ_run Cert.ReferenceIdeal.defs _ _).mono (fun _ h c => ⟨(h c).1.trans (by
        rw [Cert.ReferenceIdeal.Read.val_main_v16_eq, Cert.Joint.Ref.result_eq, (hagree c).1, (hagree c).2.1,
          (hagree c).2.2.1, (hagree c).2.2.2.1, (hagree c).2.2.2.2.1, (hagree c).2.2.2.2.2]), (h c).2⟩)
      (Cert.ReferenceIdeal.Value.run (F := Ideal) m' ρ')⟩⟩

end Cert.Proof

end
